-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S2048x1024 : Shape := ⟨2, ![2048, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S2048x1024 .f32) (main_arg8 : FVec F S1024 .f32) (main_arg9 : FVec F S2048x1024 .f32) (main_arg10 : FVec F S1024 .f32) (main_v33 : IVec S_ 1) : IVec S_ 1 :=
  let main_v34 : FVec F S2048x1024 .f32 := Host.absf main_arg7
  let main_cst_12 : FVec F S_ .f32 := constant S_ .f32 0x7F800000#32
  let main_v35 : FVec F S2048x1024 .f32 := broadcastInDim S2048x1024 ![] bcast_S_S2048x1024 main_cst_12
  let main_v36 : IVec S2048x1024 1 := cmpf .olt main_v34 main_v35
  let main_c_13 : IVec S_ 1 := constantI S_ 1 1#1
  let main_v37 : IVec S_ 1 := (fun x v => Host.reduce IntOp.andi x v reducesTo_S2048x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S2048x1024 .f32 := Host.absf main_arg9
  let main_cst_16 : FVec F S_ .f32 := constant S_ .f32 0x7F800000#32
  let main_v45 : FVec F S2048x1024 .f32 := broadcastInDim S2048x1024 ![] bcast_S_S2048x1024 main_cst_16
  let main_v46 : IVec S2048x1024 1 := cmpf .olt main_v44 main_v45
  let main_c_17 : IVec S_ 1 := constantI S_ 1 1#1
  let main_v47 : IVec S_ 1 := (fun x v => Host.reduce IntOp.andi x v reducesTo_S2048x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S2048x1024 .f32) (main_arg6 : FVec F S1024 .f32) (main_arg7 : FVec F S2048x1024 .f32) (main_arg8 : FVec F S1024 .f32) (main_arg9 : FVec F S2048x1024 .f32) (main_arg10 : FVec F S1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x1024 .f32) (main_arg1 : FVec F S8192x1024 .f32) (main_arg2 : FVec F S8192x1024 .f32) (main_arg3 : FVec F S2048x1024 .f32) (main_arg4 : FVec F S1024 .f32) (main_arg5 : FVec F S2048x1024 .f32) (main_arg6 : FVec F S1024 .f32) (main_arg7 : FVec F S2048x1024 .f32) (main_arg8 : FVec F S1024 .f32) (main_arg9 : FVec F S2048x1024 .f32) (main_arg10 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_arg6 main_arg7 main_arg8 main_arg9 main_arg10 main_v13 main_v16
-- ==== Kernel.lean ====
abbrev S8192x1024 : Shape := ⟨2, ![8192, 1024]⟩
abbrev S2048x1024 : Shape := ⟨2, ![2048, 1024]⟩
abbrev S1024 : Shape := ⟨1, ![1024]⟩
abbrev S1024x1024 : Shape := ⟨2, ![1024, 1024]⟩
abbrev S1024x4096 : Shape := ⟨2, ![1024, 4096]⟩
abbrev S4096 : Shape := ⟨1, ![4096]⟩
abbrev S1x4096 : Shape := ⟨2, ![1, 4096]⟩
abbrev S256x1024 : Shape := ⟨2, ![256, 1024]⟩
abbrev S256x4096 : Shape := ⟨2, ![256, 4096]⟩

abbrev nBuf : Space → Nat
  | .hbm => 27
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S1024x4096, .f32⟩
  | .hbm, ⟨20, _⟩ => ⟨S1024x4096, .bf16⟩
  | .hbm, ⟨21, _⟩ => ⟨S1024x4096, .f32⟩
  | .hbm, ⟨22, _⟩ => ⟨S1024x4096, .bf16⟩
  | .hbm, ⟨23, _⟩ => ⟨S4096, .f32⟩
  | .hbm, ⟨24, _⟩ => ⟨S1x4096, .f32⟩
  | .hbm, ⟨25, _⟩ => ⟨S8192x1024, .f32⟩
  | .hbm, ⟨26, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2048x1024_S1024x1024_0_0 : S2048x1024.Slices ![0, 0] S1024x1024
  slices_S2048x1024_S1024x1024_1024_0 : S2048x1024.Slices ![1024, 0] S1024x1024
  concatenates_S1024x1024_S1024x1024_S1024x1024_S1024x1024_S1024x4096_d1 : Shape.Concatenates [S1024x1024, S1024x1024, S1024x1024, S1024x1024] S1024x4096 1
  bitsLt_bf16_f32 : FTy.bits .bf16 < FTy.bits .f32
  concatenates_S1024_S1024_S1024_S1024_S4096_d0 : Shape.Concatenates [S1024, S1024, S1024, S1024] S4096 0
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S8192x1024.size a
  hwx0_6 : ∀ i : grid0.Coords, EltTy.bits .f32 = 32 ∨ (Rect.block (s := S8192x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S8192x1024.size a
  hwx0_7 : ∀ i : grid0.Coords, EltTy.bits .f32 = 32 ∨ (Rect.block (s := S8192x1024) S256x1024.size (cc0_transform_7 i) (hinb0_7 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v14_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S2048x1024 : Shape := ⟨2, ![2048, 1024]⟩
abbrev S1024 : Shape := ⟨1, ![1024]⟩
abbrev S8192x2048 : Shape := ⟨2, ![8192, 2048]⟩
abbrev S2048x4096 : Shape := ⟨2, ![2048, 4096]⟩
abbrev S4096 : Shape := ⟨1, ![4096]⟩
abbrev S8192x4096 : Shape := ⟨2, ![8192, 4096]⟩
abbrev S1x4096 : Shape := ⟨2, ![1, 4096]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S8192x2048, .f32⟩
  | .hbm, ⟨12, _⟩ => ⟨S2048x4096, .f32⟩
  | .hbm, ⟨13, _⟩ => ⟨S4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]

class Facts₀ : Prop where
  concatenates_S8192x1024_S8192x1024_S8192x2048_d1 : Shape.Concatenates [S8192x1024, S8192x1024] S8192x2048 1
  concatenates_S2048x1024_S2048x1024_S2048x1024_S2048x1024_S2048x4096_d1 : Shape.Concatenates [S2048x1024, S2048x1024, S2048x1024, S2048x1024] S2048x4096 1
  concatenates_S1024_S1024_S1024_S1024_S4096_d0 : Shape.Concatenates [S1024, S1024, S1024, S1024] S4096 0
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  dot_S8192x2048_S2048x4096_S8192x4096_1_0_0_1_n_n_wf : DotDims.WF S8192x2048 S2048x4096 S8192x4096 [1] [0] [0] [1] [] []

variable [Facts₀]

def dot_S8192x2048_S2048x4096_S8192x4096_1_0_0_1_n_n : DotDims S8192x2048 S2048x4096 S8192x4096 where
  lhsContracting := [1]
  rhsContracting := [0]
  lhsNonContracting := [0]
  rhsNonContracting := [1]
  lhsBatch := []
  rhsBatch := []
  wf := dot_S8192x2048_S2048x4096_S8192x4096_1_0_0_1_n_n_wf

class Facts : Prop extends Facts₀ where

variable [Facts]
-- ==== Proof.CellEntryBits.lean ====
/-
  The LSTM-cell kernel's program up to its one pipelined region, and what the region finds.

  Before the region the host slices each of the four gate weight matrices W_g : [2048, 1024] into its x-rows
  (rows 0..1023) and its h-rows (rows 1024..2047), lays the four x-parts side by side as one [1024, 4096] matrix and the
  four h-parts as another, rounds both to bf16, and lays the four biases end to end as one [1, 4096] row. None of these
  operations writes an argument array, so every argument is, at the region's entry, what it was at launch.

  The region walks 32 grid points; point t stages rows 256·t .. 256·t+255 of x, h and c (windows 0, 1, 2), the whole
  of the two weight matrices and the bias row (windows 3, 4, 5: one block each, fetched once), and writes back rows
  256·t .. 256·t+255 of the two results (windows 6, 7).
-/
import proofs.«163377_j49039936586195_1_alg».proof.Proof.Gen.Kernel.Launch
import proofs.«163377_j49039936586195_1_alg».proof.Proof.Gen.Kernel.Skeleton
import proofs.«163377_j49039936586195_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The program up to the region -/

/-- Core `c`'s buffers when the region is entered: the launch memory after the fourteen host operations. -/
abbrev V (c : Dev nD) (b : Ref sig .tc) : Buf (Elt F) ((c : Thread nD τ).loc b) := StableHlo.after hostOps0 (fun b => m (c, b)) b

/-- No host operation allocates. -/
theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the pipeline fetched it there or
    not (an unfetched window's block index has not moved), for any proof data over the region-entry arrays whose
    body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether the pipeline fetched it there or
    not (an unfetched window's block index has not moved), for any proof data over the region-entry arrays whose
    body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether the pipeline fetched it there or
    not (an unfetched window's block index has not moved), for any proof data over the region-entry arrays whose
    body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether the pipeline fetched it there or
    not (an unfetched window's block index has not moved), for any proof data over the region-entry arrays whose
    body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether the pipeline fetched it there or
    not (an unfetched window's block index has not moved), for any proof data over the region-entry arrays whose
    body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, whether the pipeline fetched it there or
    not (an unfetched window's block index has not moved), for any proof data over the region-entry arrays whose
    body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- In a final state satisfying the library's post of the region's pipeline — every window's array at what the proof
    data computes, every other unscoped buffer as the region found it — the arguments are as launched: x, h and c are
    input windows' arrays, the weights and biases are staged by no window, and no host operation wrote any of them. -/
theorem kept_of_post (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩

/-- From a run of the region's pipeline to the library's post — every window's array at what the proof data computes,
    every other unscoped buffer as the region found it — the arguments end as launched: x, h and c are input windows'
    arrays, the weights and biases are staged by no window, and no host operation wrote any of them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => kept_of_post m dats hA r h c) h

end Cert.Kernel.Cell

end
-- ==== Proof.CellBodyBits.lean ====
/-
  The LSTM-cell kernel's body at one grid point, and the run of its pipeline.

  At a point the body reads its six input blocks whole — 256 rows of x, of h and of c, the two [1024, 4096] weight
  matrices and the [1, 4096] bias row — and overwrites both output blocks whole: the new cell state
  c' = σ(g_f)·c + σ(g_i)·tanh(g_u) and the new hidden state h' = σ(g_o)·tanh(c'), where the gate pre-activations are
  the four 1024-column bands of g = x·Wx + h·Wh + b. (It also loads each output block before storing it; nothing it
  stores depends on those loads.) So after the body each output's staging buffer holds one function of the six input
  blocks, and since each input block is the same at every point it is staged — fetched there or not — the pipeline
  runs to the library's post: every output array overwritten block by block by what the body left.
-/
import proofs.«163377_j49039936586195_1_alg».proof.Proof.CellEntryBits

set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: each buffer whole -/

abbrev rRows : Rect S256x1024 := Rect.unit (s := S256x1024) ![0, 0] S256x1024.size inb_S256x1024_S256x1024_0_0
abbrev rWeights : Rect S1024x4096 := Rect.unit (s := S1024x4096) ![0, 0] S1024x4096.size inb_S1024x4096_S1024x4096_0_0
abbrev rBias : Rect S1x4096 := Rect.unit (s := S1x4096) ![0, 0] S1x4096.size inb_S1x4096_S1x4096_0_0

/-! ## What the body leaves in each output block -/

/-- The hidden-state block after the body, from the six input blocks (rows of x, h, c; the x-weights, the h-weights,
    the bias row): its one whole store, of h' = σ(g_o)·tanh(c'). -/
def hiddenBlock (x h cc : Vec F S256x1024 .f32) (wx wh : Vec F S1024x4096 .bf16) (b : Vec F S1x4096 .f32) : Vec F S256x1024 .f32 :=
  View.canon [⟨rRows, k0_pay3 (View.ld x rRows) (View.ld h rRows) (View.ld wx rWeights) (View.ld wh rWeights) (View.ld b rBias) (View.ld cc rRows)⟩]

/-- The cell-state block after the body: its one whole store, of c' = σ(g_f)·c + σ(g_i)·tanh(g_u). -/
def cellBlock (x h cc : Vec F S256x1024 .f32) (wx wh : Vec F S1024x4096 .bf16) (b : Vec F S1x4096 .f32) : Vec F S256x1024 .f32 :=
  View.canon [⟨rRows, k0_pay2 (View.ld x rRows) (View.ld h rRows) (View.ld wx rWeights) (View.ld wh rWeights) (View.ld b rBias) (View.ld cc rRows)⟩]

/-- One whole store covers the block. -/
theorem cover_rows (p0 : Vec F S256x1024 .f32) (y : S256x1024.Idx) :
    ∃ pc ∈ ([⟨rRows, p0⟩] : List (View.Piece (Elt F) S256x1024 .f32)), y ∈ pc.1.set :=
  View.cover_of_tiled [⟨rRows, p0⟩] S256x1024.size (by rfl) y

/-! ## The body's triple -/

set_option maxHeartbeats 1000000 in
/-- The body on whole staging memrefs — the inputs' at given contents, the outputs' at anything — runs to the end
    leaving the inputs' as they were and the outputs' at `hiddenBlock` and `cellBlock` of the inputs'. -/
theorem sound_kernel (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S256x1024 .f32) (harg7 : arg7.IsWhole) (arg8 : Memref sig .tc .vmem S256x1024 .f32) (harg8 : arg8.IsWhole)
    (x h cc : Vec F S256x1024 .f32) (wx wh : Vec F S1024x4096 .bf16) (b : Vec F S1x4096 .f32) (K : PUnit → sProp 𝕄) :
    iprop(owns (c : Thread nD τ) arg1 fullShare x ∗ owns (c : Thread nD τ) arg2 fullShare h ∗ owns (c : Thread nD τ) arg3 fullShare cc
        ∗ owns (c : Thread nD τ) arg4 fullShare wx ∗ owns (c : Thread nD τ) arg5 fullShare wh ∗ owns (c : Thread nD τ) arg6 fullShare b
        ∗ (∃ d, owns (c : Thread nD τ) arg7 fullShare d) ∗ (∃ d, owns (c : Thread nD τ) arg8 fullShare d)
        ∗ (iprop(owns (c : Thread nD τ) arg1 fullShare x ∗ owns (c : Thread nD τ) arg2 fullShare h ∗ owns (c : Thread nD τ) arg3 fullShare cc
            ∗ owns (c : Thread nD τ) arg4 fullShare wx ∗ owns (c : Thread nD τ) arg5 fullShare wh ∗ owns (c : Thread nD τ) arg6 fullShare b
            ∗ owns (c : Thread nD τ) arg7 fullShare (hiddenBlock x h cc wx wh b) ∗ owns (c : Thread nD τ) arg8 fullShare (cellBlock x h cc wx wh b)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_rows _)
  iexists _; isplitr
  swap; · iexact H7
  ipureintro
  exact View.read_writes_eq_canon _ _ _ (cover_rows _)

/-! ## The pipeline's proof data -/

/-- The proof data of the pipeline on core `c`: the arrays as the region finds them; after the body at point `t` each
    input's buffer at its block and each output's at `hiddenBlock` / `cellBlock` of the input blocks; nothing carried
    between points, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => hiddenBlock (iblk m c 0 t) (iblk m c 1 t) (iblk m c 2 t) (iblk m c 3 t) (iblk m c 4 t) (iblk m c 5 t)
    | ⟨7, _⟩ => cellBlock (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = hiddenBlock (iblk m c 0 t) (iblk m c 1 t) (iblk m c 2 t) (iblk m c 3 t) (iblk m c 4 t) (iblk m c 5 t) := by dsimp only [dats]
theorem after7 (c : Dev nD) (t : Fin cfg0.N) : (dats m 0 c).after 7 t = cellBlock (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state has
    every window's array at what the library computes from the proof data and every other unscoped buffer as the region
    found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end, faults nowhere, and leaves its eleven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Cell

end
-- ==== Proof.CellEntry.lean ====
/-
  The LSTM-cell kernel's program up to its one pipelined region, and what the region finds.

  Before the region the host slices each of the four gate weight matrices W_g : [2048, 1024] into its x-rows
  (rows 0..1023) and its h-rows (rows 1024..2047), lays the four x-parts side by side as one [1024, 4096] matrix and the
  four h-parts as another, rounds both to bf16, and lays the four biases end to end as one [1, 4096] row. None of these
  operations writes an argument array, so every argument is, at the region's entry, what it was at launch.

  The region walks 32 grid points; point t stages rows 256·t .. 256·t+255 of x, h and c (windows 0, 1, 2), the whole
  of the two weight matrices and the bias row (windows 3, 4, 5: one block each, fetched once), and writes back rows
  256·t .. 256·t+255 of the two results (windows 6, 7).
-/
import proofs.«163377_j49039936586195_1_alg».proof.Proof.Gen.KernelIdeal.Launch
import proofs.«163377_j49039936586195_1_alg».proof.Proof.Gen.KernelIdeal.Skeleton
import proofs.«163377_j49039936586195_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The program up to the region -/

/-- Core `c`'s buffers when the region is entered: the launch memory after the fourteen host operations. -/
abbrev V (c : Dev nD) (b : Ref sig .tc) : Buf (Elt F) ((c : Thread nD τ).loc b) := StableHlo.after hostOps0 (fun b => m (c, b)) b

/-- No host operation allocates. -/
theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the pipeline fetched it there or
    not (an unfetched window's block index has not moved), for any proof data over the region-entry arrays whose
    body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether the pipeline fetched it there or
    not (an unfetched window's block index has not moved), for any proof data over the region-entry arrays whose
    body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether the pipeline fetched it there or
    not (an unfetched window's block index has not moved), for any proof data over the region-entry arrays whose
    body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether the pipeline fetched it there or
    not (an unfetched window's block index has not moved), for any proof data over the region-entry arrays whose
    body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether the pipeline fetched it there or
    not (an unfetched window's block index has not moved), for any proof data over the region-entry arrays whose
    body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, whether the pipeline fetched it there or
    not (an unfetched window's block index has not moved), for any proof data over the region-entry arrays whose
    body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- In a final state satisfying the library's post of the region's pipeline — every window's array at what the proof
    data computes, every other unscoped buffer as the region found it — the arguments are as launched: x, h and c are
    input windows' arrays, the weights and biases are staged by no window, and no host operation wrote any of them. -/
theorem kept_of_post (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩

/-- From a run of the region's pipeline to the library's post — every window's array at what the proof data computes,
    every other unscoped buffer as the region found it — the arguments end as launched: x, h and c are input windows'
    arrays, the weights and biases are staged by no window, and no host operation wrote any of them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => kept_of_post m dats hA r h c) h

end Cert.KernelIdeal.Cell

end
-- ==== Proof.CellBody.lean ====
/-
  The LSTM-cell kernel's body at one grid point, and the run of its pipeline.

  At a point the body reads its six input blocks whole — 256 rows of x, of h and of c, the two [1024, 4096] weight
  matrices and the [1, 4096] bias row — and overwrites both output blocks whole: the new cell state
  c' = σ(g_f)·c + σ(g_i)·tanh(g_u) and the new hidden state h' = σ(g_o)·tanh(c'), where the gate pre-activations are
  the four 1024-column bands of g = x·Wx + h·Wh + b. (It also loads each output block before storing it; nothing it
  stores depends on those loads.) So after the body each output's staging buffer holds one function of the six input
  blocks, and since each input block is the same at every point it is staged — fetched there or not — the pipeline
  runs to the library's post: every output array overwritten block by block by what the body left.
-/
import proofs.«163377_j49039936586195_1_alg».proof.Proof.CellEntry

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: each buffer whole -/

abbrev rRows : Rect S256x1024 := Rect.unit (s := S256x1024) ![0, 0] S256x1024.size inb_S256x1024_S256x1024_0_0
abbrev rWeights : Rect S1024x4096 := Rect.unit (s := S1024x4096) ![0, 0] S1024x4096.size inb_S1024x4096_S1024x4096_0_0
abbrev rBias : Rect S1x4096 := Rect.unit (s := S1x4096) ![0, 0] S1x4096.size inb_S1x4096_S1x4096_0_0

/-! ## What the body leaves in each output block -/

/-- The hidden-state block after the body, from the six input blocks (rows of x, h, c; the x-weights, the h-weights,
    the bias row): its one whole store, of h' = σ(g_o)·tanh(c'). -/
def hiddenBlock (x h cc : Vec F S256x1024 .f32) (wx wh : Vec F S1024x4096 .bf16) (b : Vec F S1x4096 .f32) : Vec F S256x1024 .f32 :=
  View.canon [⟨rRows, k0_pay3 (View.ld x rRows) (View.ld h rRows) (View.ld wx rWeights) (View.ld wh rWeights) (View.ld b rBias) (View.ld cc rRows)⟩]

/-- The cell-state block after the body: its one whole store, of c' = σ(g_f)·c + σ(g_i)·tanh(g_u). -/
def cellBlock (x h cc : Vec F S256x1024 .f32) (wx wh : Vec F S1024x4096 .bf16) (b : Vec F S1x4096 .f32) : Vec F S256x1024 .f32 :=
  View.canon [⟨rRows, k0_pay2 (View.ld x rRows) (View.ld h rRows) (View.ld wx rWeights) (View.ld wh rWeights) (View.ld b rBias) (View.ld cc rRows)⟩]

/-- One whole store covers the block. -/
theorem cover_rows (p0 : Vec F S256x1024 .f32) (y : S256x1024.Idx) :
    ∃ pc ∈ ([⟨rRows, p0⟩] : List (View.Piece (Elt F) S256x1024 .f32)), y ∈ pc.1.set :=
  View.cover_of_tiled [⟨rRows, p0⟩] S256x1024.size (by rfl) y

/-! ## The body's triple -/

set_option maxHeartbeats 1000000 in
/-- The body on whole staging memrefs — the inputs' at given contents, the outputs' at anything — runs to the end
    leaving the inputs' as they were and the outputs' at `hiddenBlock` and `cellBlock` of the inputs'. -/
theorem sound_kernel (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S256x1024 .f32) (harg7 : arg7.IsWhole) (arg8 : Memref sig .tc .vmem S256x1024 .f32) (harg8 : arg8.IsWhole)
    (x h cc : Vec F S256x1024 .f32) (wx wh : Vec F S1024x4096 .bf16) (b : Vec F S1x4096 .f32) (K : PUnit → sProp 𝕄) :
    iprop(owns (c : Thread nD τ) arg1 fullShare x ∗ owns (c : Thread nD τ) arg2 fullShare h ∗ owns (c : Thread nD τ) arg3 fullShare cc
        ∗ owns (c : Thread nD τ) arg4 fullShare wx ∗ owns (c : Thread nD τ) arg5 fullShare wh ∗ owns (c : Thread nD τ) arg6 fullShare b
        ∗ (∃ d, owns (c : Thread nD τ) arg7 fullShare d) ∗ (∃ d, owns (c : Thread nD τ) arg8 fullShare d)
        ∗ (iprop(owns (c : Thread nD τ) arg1 fullShare x ∗ owns (c : Thread nD τ) arg2 fullShare h ∗ owns (c : Thread nD τ) arg3 fullShare cc
            ∗ owns (c : Thread nD τ) arg4 fullShare wx ∗ owns (c : Thread nD τ) arg5 fullShare wh ∗ owns (c : Thread nD τ) arg6 fullShare b
            ∗ owns (c : Thread nD τ) arg7 fullShare (hiddenBlock x h cc wx wh b) ∗ owns (c : Thread nD τ) arg8 fullShare (cellBlock x h cc wx wh b)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_rows _)
  iexists _; isplitr
  swap; · iexact H7
  ipureintro
  exact View.read_writes_eq_canon _ _ _ (cover_rows _)

/-! ## The pipeline's proof data -/

/-- The proof data of the pipeline on core `c`: the arrays as the region finds them; after the body at point `t` each
    input's buffer at its block and each output's at `hiddenBlock` / `cellBlock` of the input blocks; nothing carried
    between points, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => hiddenBlock (iblk m c 0 t) (iblk m c 1 t) (iblk m c 2 t) (iblk m c 3 t) (iblk m c 4 t) (iblk m c 5 t)
    | ⟨7, _⟩ => cellBlock (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = hiddenBlock (iblk m c 0 t) (iblk m c 1 t) (iblk m c 2 t) (iblk m c 3 t) (iblk m c 4 t) (iblk m c 5 t) := by dsimp only [dats]
theorem after7 (c : Dev nD) (t : Fin cfg0.N) : (dats m 0 c).after 7 t = cellBlock (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state has
    every window's array at what the library computes from the proof data and every other unscoped buffer as the region
    found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end, faults nowhere, and leaves its eleven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Cell

end
-- ==== Proof.LibBands.lean ====
/-
  Arrays laid side by side, read at an entry.

  Joining four R×C matrices along their columns gives an R×T matrix (T = 4·C) whose column g·C + q is column q of the
  g-th piece; joining four vectors of length C end to end gives a vector whose entry g·C + q is entry q of the g-th
  piece; joining an R×C₁ matrix and an R×C₂ matrix along their columns gives a matrix whose first C₁ columns are the
  first piece's and whose column C₁ + q is column q of the second. Nothing is computed: each entry of the result IS one
  entry of one piece.
-/
import Idealize.ShloMosaic.Lib.Pipeline.Value
import Idealize.ShloMosaic.Lib.ValueIdx

noncomputable section

namespace Cert.Lib.Bands

open Idealize.ShloMosaic Idealize.ShloMosaic.ValueIdx

variable {α : Type}

/-- Picking the g-th of four values after applying a function to each is applying it to the g-th. -/
theorem pick_map {β γ : Type} (f : β → γ) (a b c d : β) (g : Fin 4) : ![f a, f b, f c, f d] g = f (![a, b, c, d] g) := by
  fin_cases g <;> rfl

/-- Four R×C matrices side by side: entry (r, g·C + q) of the join is entry (r, q) of piece g. -/
theorem four_bands_apply {R C T : ℕ} (y0 y1 y2 y3 : (⟨2, ![R, C]⟩ : Shape).Idx → α)
    (h : Shape.Concatenates [⟨2, ![R, C]⟩, ⟨2, ![R, C]⟩, ⟨2, ![R, C]⟩, ⟨2, ![R, C]⟩] ⟨2, ![R, T]⟩ 1)
    (g : Fin 4) (r : Fin R) (q : Fin C) (J : Fin T) (hJ : J.val = g.val * C + q.val) :
    concatenate ⟨2, ![R, T]⟩ 1 [⟨⟨2, ![R, C]⟩, y0⟩, ⟨⟨2, ![R, C]⟩, y1⟩, ⟨⟨2, ![R, C]⟩, y2⟩, ⟨⟨2, ![R, C]⟩, y3⟩] h (ix2 r J)
      = (![y0, y1, y2, y3] g) (ix2 r q) := by
  have hoff : ∀ b : Fin 2, b.cast (rfl : (2 : ℕ) = 2) ≠ (1 : Fin 2) → ((ix2 r q) b).val = ((ix2 r J) (b.cast rfl)).val := fun b hb => by
    match b with
    | ⟨0, _⟩ => rfl
    | ⟨1, _⟩ => exact absurd rfl hb
  match g with
  | ⟨0, _⟩ =>
    exact concatenate_apply_piece (t := ⟨2, ![R, T]⟩) (1 : Fin 2) [⟨⟨2, ![R, C]⟩, y0⟩, ⟨⟨2, ![R, C]⟩, y1⟩, ⟨⟨2, ![R, C]⟩, y2⟩, ⟨⟨2, ![R, C]⟩, y3⟩] h (ix2 r J) 0 (show 0 < 4 by omega) ⟨2, ![R, C]⟩ y0 rfl rfl 0 rfl (ix2 r q) hoff
      (by show 0 + q.val = J.val; rw [hJ]; show 0 + q.val = 0 * C + q.val; omega)
  | ⟨1, _⟩ =>
    exact concatenate_apply_piece (t := ⟨2, ![R, T]⟩) (1 : Fin 2) [⟨⟨2, ![R, C]⟩, y0⟩, ⟨⟨2, ![R, C]⟩, y1⟩, ⟨⟨2, ![R, C]⟩, y2⟩, ⟨⟨2, ![R, C]⟩, y3⟩] h (ix2 r J) 1 (show 1 < 4 by omega) ⟨2, ![R, C]⟩ y1 rfl rfl (C + 0) rfl (ix2 r q) hoff
      (by show C + 0 + q.val = J.val; rw [hJ]; show C + 0 + q.val = 1 * C + q.val; omega)
  | ⟨2, _⟩ =>
    exact concatenate_apply_piece (t := ⟨2, ![R, T]⟩) (1 : Fin 2) [⟨⟨2, ![R, C]⟩, y0⟩, ⟨⟨2, ![R, C]⟩, y1⟩, ⟨⟨2, ![R, C]⟩, y2⟩, ⟨⟨2, ![R, C]⟩, y3⟩] h (ix2 r J) 2 (show 2 < 4 by omega) ⟨2, ![R, C]⟩ y2 rfl rfl (C + (C + 0)) rfl (ix2 r q) hoff
      (by show C + (C + 0) + q.val = J.val; rw [hJ]; show C + (C + 0) + q.val = 2 * C + q.val; omega)
  | ⟨3, _⟩ =>
    exact concatenate_apply_piece (t := ⟨2, ![R, T]⟩) (1 : Fin 2) [⟨⟨2, ![R, C]⟩, y0⟩, ⟨⟨2, ![R, C]⟩, y1⟩, ⟨⟨2, ![R, C]⟩, y2⟩, ⟨⟨2, ![R, C]⟩, y3⟩] h (ix2 r J) 3 (show 3 < 4 by omega) ⟨2, ![R, C]⟩ y3 rfl rfl (C + (C + (C + 0))) rfl (ix2 r q) hoff
      (by show C + (C + (C + 0)) + q.val = J.val; rw [hJ]; show C + (C + (C + 0)) + q.val = 3 * C + q.val; omega)

/-- Four vectors of length C end to end: entry g·C + q of the join is entry q of piece g. -/
theorem four_segments_apply {C T : ℕ} (y0 y1 y2 y3 : (⟨1, ![C]⟩ : Shape).Idx → α)
    (h : Shape.Concatenates [⟨1, ![C]⟩, ⟨1, ![C]⟩, ⟨1, ![C]⟩, ⟨1, ![C]⟩] ⟨1, ![T]⟩ 0)
    (g : Fin 4) (q : Fin C) (J : Fin T) (hJ : J.val = g.val * C + q.val) :
    concatenate ⟨1, ![T]⟩ 0 [⟨⟨1, ![C]⟩, y0⟩, ⟨⟨1, ![C]⟩, y1⟩, ⟨⟨1, ![C]⟩, y2⟩, ⟨⟨1, ![C]⟩, y3⟩] h (ix1 J)
      = (![y0, y1, y2, y3] g) (ix1 q) := by
  have hoff : ∀ b : Fin 1, b.cast (rfl : (1 : ℕ) = 1) ≠ (0 : Fin 1) → ((ix1 q) b).val = ((ix1 J) (b.cast rfl)).val := fun b hb => by
    match b with
    | ⟨0, _⟩ => exact absurd rfl hb
  match g with
  | ⟨0, _⟩ =>
    exact concatenate_apply_piece (t := ⟨1, ![T]⟩) (0 : Fin 1) [⟨⟨1, ![C]⟩, y0⟩, ⟨⟨1, ![C]⟩, y1⟩, ⟨⟨1, ![C]⟩, y2⟩, ⟨⟨1, ![C]⟩, y3⟩] h (ix1 J) 0 (show 0 < 4 by omega) ⟨1, ![C]⟩ y0 rfl rfl 0 rfl (ix1 q) hoff
      (by show 0 + q.val = J.val; rw [hJ]; show 0 + q.val = 0 * C + q.val; omega)
  | ⟨1, _⟩ =>
    exact concatenate_apply_piece (t := ⟨1, ![T]⟩) (0 : Fin 1) [⟨⟨1, ![C]⟩, y0⟩, ⟨⟨1, ![C]⟩, y1⟩, ⟨⟨1, ![C]⟩, y2⟩, ⟨⟨1, ![C]⟩, y3⟩] h (ix1 J) 1 (show 1 < 4 by omega) ⟨1, ![C]⟩ y1 rfl rfl (C + 0) rfl (ix1 q) hoff
      (by show C + 0 + q.val = J.val; rw [hJ]; show C + 0 + q.val = 1 * C + q.val; omega)
  | ⟨2, _⟩ =>
    exact concatenate_apply_piece (t := ⟨1, ![T]⟩) (0 : Fin 1) [⟨⟨1, ![C]⟩, y0⟩, ⟨⟨1, ![C]⟩, y1⟩, ⟨⟨1, ![C]⟩, y2⟩, ⟨⟨1, ![C]⟩, y3⟩] h (ix1 J) 2 (show 2 < 4 by omega) ⟨1, ![C]⟩ y2 rfl rfl (C + (C + 0)) rfl (ix1 q) hoff
      (by show C + (C + 0) + q.val = J.val; rw [hJ]; show C + (C + 0) + q.val = 2 * C + q.val; omega)
  | ⟨3, _⟩ =>
    exact concatenate_apply_piece (t := ⟨1, ![T]⟩) (0 : Fin 1) [⟨⟨1, ![C]⟩, y0⟩, ⟨⟨1, ![C]⟩, y1⟩, ⟨⟨1, ![C]⟩, y2⟩, ⟨⟨1, ![C]⟩, y3⟩] h (ix1 J) 3 (show 3 < 4 by omega) ⟨1, ![C]⟩ y3 rfl rfl (C + (C + (C + 0))) rfl (ix1 q) hoff
      (by show C + (C + (C + 0)) + q.val = J.val; rw [hJ]; show C + (C + (C + 0)) + q.val = 3 * C + q.val; omega)

/-- Two matrices side by side, at a column of the first: entry (r, q) of the join, q < C₁, is entry (r, q) of the
    first piece. -/
theorem two_bands_left {R C₁ C₂ T : ℕ} (y0 : (⟨2, ![R, C₁]⟩ : Shape).Idx → α) (y1 : (⟨2, ![R, C₂]⟩ : Shape).Idx → α)
    (h : Shape.Concatenates [⟨2, ![R, C₁]⟩, ⟨2, ![R, C₂]⟩] ⟨2, ![R, T]⟩ 1)
    (r : Fin R) (q : Fin C₁) (J : Fin T) (hJ : J.val = q.val) :
    concatenate ⟨2, ![R, T]⟩ 1 [⟨⟨2, ![R, C₁]⟩, y0⟩, ⟨⟨2, ![R, C₂]⟩, y1⟩] h (ix2 r J) = y0 (ix2 r q) :=
  concatenate_pair_apply_left (t := ⟨2, ![R, T]⟩) (1 : Fin 2) y0 y1 h (ix2 r J) rfl (ix2 r q) fun b => by
    match b with
    | ⟨0, _⟩ => rfl
    | ⟨1, _⟩ => exact hJ.symm

/-- Two matrices side by side, at a column of the second: entry (r, C₁ + q) of the join is entry (r, q) of the second
    piece. -/
theorem two_bands_right {R C₁ C₂ T : ℕ} (y0 : (⟨2, ![R, C₁]⟩ : Shape).Idx → α) (y1 : (⟨2, ![R, C₂]⟩ : Shape).Idx → α)
    (h : Shape.Concatenates [⟨2, ![R, C₁]⟩, ⟨2, ![R, C₂]⟩] ⟨2, ![R, T]⟩ 1)
    (r : Fin R) (q : Fin C₂) (J : Fin T) (hJ : J.val = C₁ + q.val) :
    concatenate ⟨2, ![R, T]⟩ 1 [⟨⟨2, ![R, C₁]⟩, y0⟩, ⟨⟨2, ![R, C₂]⟩, y1⟩] h (ix2 r J) = y1 (ix2 r q) :=
  concatenate_pair_apply_right (t := ⟨2, ![R, T]⟩) (1 : Fin 2) y0 y1 h (ix2 r J) rfl rfl (ix2 r q)
    (fun b hb => by
      match b with
      | ⟨0, _⟩ => rfl
      | ⟨1, _⟩ => exact absurd rfl hb)
    (by show q.val + C₁ = J.val; omega)

end Cert.Lib.Bands

end
-- ==== Proof.CellWeights.lean ====
/-
  What the region finds in the arrays of its three constant windows.

  Before the region the host cuts each gate's 2048×1024 weight matrix W_g into its x-rows (rows 0..1023) and its h-rows
  (rows 1024..2047), lays the four x-parts side by side and the four h-parts side by side (each a 1024×4096 matrix, rounded
  to bf16 — the identity on the extended reals), and lays the four biases end to end as a 1×4096 row. So, at the region's
  entry, column g·1024 + j of the x-weights matrix at row k is W_g(k, j), of the h-weights matrix W_g(1024 + k, j), and
  entry g·1024 + j of the bias row is b_g(j). Gates in order: forget, input, output, candidate.
-/
import proofs.«163377_j49039936586195_1_alg».proof.Proof.CellEntry
import proofs.«163377_j49039936586195_1_alg».proof.Proof.LibBands
import Idealize.ShloMosaic.Lib.StableHlo.Run
import Idealize.ShloMosaic.Lib.ValueLayout
import Idealize.ShloMosaic.PureOps.Ideal

noncomputable section

namespace Cert.KernelIdeal.CellValue

open Cert.KernelIdeal Cert.KernelIdeal.Gen Cert.KernelIdeal.Cell
open Idealize.ShloMosaic Idealize.ShloMosaic.TcCoe Idealize.ShloMosaic.ValueIdx Idealize.SL.Sem Idealize.ShloMosaic.StableHlo

/-- Each host operation's result read at its own buffer is its function of its operands, and at any other buffer what
    was there before: applied until the contents are a term over the launch memory. -/
macro "host_results" : tactic =>
  `(tactic| (repeat (first
               | rw [unary_result] | rw [reshape_result] | rw [nary_result]
               | (rw [unary_result_ne]; rotate_left; decide)
               | (rw [reshape_result_ne]; rotate_left; decide)
               | (rw [nary_result_ne]; rotate_left; decide))))

variable (m : (ℓ : Loc nD τ sig) → Buf (Elt Ideal) ℓ)

/-- The x-weights matrix at the region's entry: column g·1024 + j at row k is W_g(k, j). -/
theorem xweights_at (c : Dev nD) (g : Fin 4) (k j : Fin 1024) (J : Fin 4096) (hJ : J.val = g.val * 1024 + j.val) :
    (V m c main_v9 : S1024x4096.Idx → EReal) (ix2 k J)
      = (![(m ((c : Thread nD τ).loc main_arg3) : S2048x1024.Idx → EReal), m ((c : Thread nD τ).loc main_arg5), m ((c : Thread nD τ).loc main_arg7), m ((c : Thread nD τ).loc main_arg9)] g) (ix2 (⟨k.val, by omega⟩ : Fin 2048) j) := by
  dsimp only [V, hostOps0]
  after_results
  simp only [Matrix.cons_val_zero, Matrix.cons_val_one, Matrix.cons_val]
  host_results
  rw [truncf_apply]
  refine (Cert.Lib.Bands.four_bands_apply _ _ _ _ concatenates_S1024x1024_S1024x1024_S1024x1024_S1024x1024_S1024x4096_d1 g k j J hJ).trans ?_
  refine (congrFun (Cert.Lib.Bands.pick_map (fun W : S2048x1024.Idx → EReal => extractStridedSlice S1024x1024 ![0, 0] W slices_S2048x1024_S1024x1024_0_0) _ _ _ _ g) (ix2 k j)).trans ?_
  exact slice2_axis0_apply 0 _ slices_S2048x1024_S1024x1024_0_0 k j _ (Nat.zero_add _).symm

/-- The h-weights matrix at the region's entry: column g·1024 + j at row k is W_g(1024 + k, j). -/
theorem hweights_at (c : Dev nD) (g : Fin 4) (k j : Fin 1024) (J : Fin 4096) (hJ : J.val = g.val * 1024 + j.val) :
    (V m c main_v11 : S1024x4096.Idx → EReal) (ix2 k J)
      = (![(m ((c : Thread nD τ).loc main_arg3) : S2048x1024.Idx → EReal), m ((c : Thread nD τ).loc main_arg5), m ((c : Thread nD τ).loc main_arg7), m ((c : Thread nD τ).loc main_arg9)] g) (ix2 (⟨1024 + k.val, by omega⟩ : Fin 2048) j) := by
  dsimp only [V, hostOps0]
  after_results
  simp only [Matrix.cons_val_zero, Matrix.cons_val_one, Matrix.cons_val]
  host_results
  rw [truncf_apply]
  refine (Cert.Lib.Bands.four_bands_apply _ _ _ _ concatenates_S1024x1024_S1024x1024_S1024x1024_S1024x1024_S1024x4096_d1 g k j J hJ).trans ?_
  refine (congrFun (Cert.Lib.Bands.pick_map (fun W : S2048x1024.Idx → EReal => extractStridedSlice S1024x1024 ![1024, 0] W slices_S2048x1024_S1024x1024_1024_0) _ _ _ _ g) (ix2 k j)).trans ?_
  exact slice2_axis0_apply 1024 _ slices_S2048x1024_S1024x1024_1024_0 k j _ rfl

/-- The bias row at the region's entry: entry g·1024 + j is b_g(j). -/
theorem bias_at (c : Dev nD) (g : Fin 4) (j : Fin 1024) (J : Fin 4096) (hJ : J.val = g.val * 1024 + j.val) :
    (V m c main_v13 : S1x4096.Idx → EReal) (ix2 (0 : Fin 1) J)
      = (![(m ((c : Thread nD τ).loc main_arg4) : S1024.Idx → EReal), m ((c : Thread nD τ).loc main_arg6), m ((c : Thread nD τ).loc main_arg8), m ((c : Thread nD τ).loc main_arg10)] g) (ix1 j) := by
  dsimp only [V, hostOps0]
  after_results
  simp only [Matrix.cons_val_zero, Matrix.cons_val_one, Matrix.cons_val]
  host_results
  refine (shapeCast_a_1a_apply _ shapeCasts_S4096_S1x4096 (0 : Fin 1) J).trans ?_
  exact Cert.Lib.Bands.four_segments_apply _ _ _ _ concatenates_S1024_S1024_S1024_S1024_S4096_d0 g j J hJ

end Cert.KernelIdeal.CellValue

end
-- ==== Proof.LibPlainProduct.lean ====
/-
  A plain matrix product read at an entry. Dimension numbers that contract the left operand's second axis with the
  right operand's first, with no batch axis — M×K by K×N — make both the device's matrix unit accumulating into zero
  and the host's general contraction, on the extended reals, the textbook sum: entry (i, j) of the product is the sum
  over k < K of A(i, k) · B(k, j). Nothing else is left of either operation there: no accumulator, no rounding, no
  order of summation. The statements hold for ANY record with those dimension numbers, whatever its name and extents.
-/
import Idealize.ShloMosaic.PureOps.Ideal.Laws
import Idealize.ShloMosaic.Lib.ValueIdx

noncomputable section

namespace Cert.Lib.PlainProduct

open Idealize.ShloMosaic Idealize.ShloMosaic.ValueIdx
open scoped BigOperators

variable {M K N : ℕ} (d : DotDims ⟨2, ![M, K]⟩ ⟨2, ![K, N]⟩ ⟨2, ![M, N]⟩)

/-- The dimension numbers of a plain product: the left operand's axis 1 is contracted with the right operand's axis 0;
    the left operand's axis 0 and the right operand's axis 1 are kept, in this order; there is no batch axis. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The left operand's row coordinate is the result's row coordinate. -/
theorem lhsIdx_row (h : IsPlain d) (j : (⟨2, ![M, N]⟩ : Shape).Idx) (q : d.contr.Idx) :
    (d.lhsIdx j q 0).val = (j 0).val := by
  unfold DotDims.lhsIdx
  rw [dif_neg (show ¬ (0 : Fin (⟨2, ![M, K]⟩ : Shape).rank) ∈ d.lhsBatch by rw [h.lb]; simp),
    dif_pos (show (0 : Fin (⟨2, ![M, K]⟩ : Shape).rank) ∈ d.lhsNonContracting by rw [h.ln]; simp)]
  simp only [Fin.val_cast]
  have key : ∀ (p p' : ℕ) (hp : p < (⟨2, ![M, N]⟩ : Shape).rank) (hp' : p' < (⟨2, ![M, N]⟩ : Shape).rank), p = p' →
      (j ⟨p, hp⟩).val = (j ⟨p', hp'⟩).val := fun p p' hp hp' e => by subst e; rfl
  exact key _ 0 _ Nat.two_pos (by simp [h.lb, h.ln])

/-- The right operand's column coordinate is the result's column coordinate. -/
theorem rhsIdx_col (h : IsPlain d) (j : (⟨2, ![M, N]⟩ : Shape).Idx) (q : d.contr.Idx) :
    (d.rhsIdx j q 1).val = (j 1).val := by
  unfold DotDims.rhsIdx
  rw [dif_neg (show ¬ (1 : Fin (⟨2, ![K, N]⟩ : Shape).rank) ∈ d.rhsBatch by rw [h.rb]; simp),
    dif_pos (show (1 : Fin (⟨2, ![K, N]⟩ : Shape).rank) ∈ d.rhsNonContracting by rw [h.rn]; simp)]
  simp only [Fin.val_cast]
  have key : ∀ (p p' : ℕ) (hp : p < (⟨2, ![M, N]⟩ : Shape).rank) (hp' : p' < (⟨2, ![M, N]⟩ : Shape).rank), p = p' →
      (j ⟨p, hp⟩).val = (j ⟨p', hp'⟩).val := fun p p' hp hp' e => by subst e; rfl
  exact key _ 1 _ Nat.one_lt_two (by simp [h.lb, h.ln, h.rn])

/-- At contraction coordinate `k` the left operand is read at (i, k). -/
theorem lhsIdx_eq (hr : d.contr.rank = 1) (hs : d.contr.size ⟨0, by omega⟩ = K) (h : IsPlain d) (i : Fin M) (j : Fin N) (k : Fin K) :
    d.lhsIdx (ix2 i j) ((contrEquiv1 d K hr hs).symm k) = ix2 i k :=
  funext fun a => Fin.ext (by
    match a with
    | ⟨0, _⟩ => exact lhsIdx_row h _ _
    | ⟨1, _⟩ => exact (d.lhsIdx_val_of_single h.lc _ _).trans (contrEquiv1_symm_val d K hr hs k))

/-- At contraction coordinate `k` the right operand is read at (k, j). -/
theorem rhsIdx_eq (hr : d.contr.rank = 1) (hs : d.contr.size ⟨0, by omega⟩ = K) (h : IsPlain d) (i : Fin M) (j : Fin N) (k : Fin K) :
    d.rhsIdx (ix2 i j) ((contrEquiv1 d K hr hs).symm k) = ix2 k j :=
  funext fun a => Fin.ext (by
    match a with
    | ⟨0, _⟩ => exact (d.rhsIdx_val_of_single h.rc _ _).trans (contrEquiv1_symm_val d K hr hs k)
    | ⟨1, _⟩ => exact rhsIdx_col h _ _)

/-- The matrix unit accumulating into zero: entry (i, j) is the sum over k of A(i, k) · B(k, j). -/
theorem matmul_zero_apply {φ₁ φ₂ : FTy} (h : IsPlain d) (hr : d.contr.rank = 1) (hs : d.contr.size ⟨0, by omega⟩ = K)
    (prec : Option ContractPrecision)
    (A : FVec Ideal ⟨2, ![M, K]⟩ φ₁) (B : FVec Ideal ⟨2, ![K, N]⟩ φ₂) (i : Fin M) (j : Fin N) :
    FloatOps.matmul d prec A B (constant ⟨2, ![M, N]⟩ .f32 0x00000000#32) (ix2 i j)
      = ∑ k : Fin K, A (ix2 i k) * B (ix2 k j) := by
  rw [Ideal.matmul_constant_zero_apply, ← Equiv.sum_comp (contrEquiv1 d K hr hs).symm]
  exact Finset.sum_congr rfl fun k _ => by rw [lhsIdx_eq hr hs h, rhsIdx_eq hr hs h]

/-- The host's general contraction: entry (i, j) is the same sum, whatever the schedule. -/
theorem dotGeneral_apply {φ₁ φ₂ : FTy} (h : IsPlain d) (hr : d.contr.rank = 1) (hs : d.contr.size ⟨0, by omega⟩ = K)
    (prec : Option ContractPrecision) (sched : HostSchedule)
    (A : FVec Ideal ⟨2, ![M, K]⟩ φ₁) (B : FVec Ideal ⟨2, ![K, N]⟩ φ₂) (i : Fin M) (j : Fin N) :
    FloatOps.dotGeneral d prec sched A B (ix2 i j) = ∑ k : Fin K, A (ix2 i k) * B (ix2 k j) := by
  rw [Ideal.dotGeneral_apply, ← Equiv.sum_comp (contrEquiv1 d K hr hs).symm]
  exact Finset.sum_congr rfl fun k _ => by rw [lhsIdx_eq hr hs h, rhsIdx_eq hr hs h]

end Cert.Lib.PlainProduct

end
-- ==== Proof.CellPayload.lean ====
/-
  The kernel body's arithmetic at one entry of a block, on the extended reals.

  From the 256-row blocks X, H, C of x, h, c, the two 1024×4096 weight matrices Wx, Wh and the 1×4096 bias row B, the body
  forms the 256×4096 matrix of pre-activations

      G(r, J) = ( Σ_{k<1024} X(r,k)·Wx(k,J)  +  Σ_{k<1024} H(r,k)·Wh(k,J) )  +  B(0,J)

  (the roundings to bf16 on the way into the matrix unit are the identity here, and each matrix product accumulates
  into zero), reads its four 1024-column bands as the forget, input, output and candidate pre-activations, and stores

      c'(r,j) = σ(G(r,j))·C(r,j) + σ(G(r,1024+j))·tanh(G(r,3072+j)),      h'(r,j) = σ(G(r,2048+j))·tanh(c'(r,j)).
-/
import proofs.«163377_j49039936586195_1_alg».proof.Proof.Gen.KernelIdeal.Skeleton
import proofs.«163377_j49039936586195_1_alg».proof.Proof.LibPlainProduct
import Idealize.ShloMosaic.Lib.ValueLayout
import Idealize.ShloMosaic.Lib.Pipeline.Value
import Idealize.ShloMosaic.PureOps.Ideal.Laws

noncomputable section

namespace Cert.KernelIdeal.CellValue

open Cert.KernelIdeal Cert.KernelIdeal.Gen
open Idealize.ShloMosaic Idealize.ShloMosaic.ValueIdx
open scoped BigOperators

/-- The body's matrix products contract the left operand's columns with the right operand's rows, nothing else. -/
theorem plain : Cert.Lib.PlainProduct.IsPlain dot_S256x1024_S1024x4096_S256x4096_1_0_0_1_n_n := ⟨rfl, rfl, rfl, rfl, rfl, rfl⟩

/-- The pre-activations at row `r`, column `J` of the 256×4096 block. -/
theorem gates_apply (X H : Vec Ideal S256x1024 .f32) (Wx Wh : Vec Ideal S1024x4096 .bf16) (B : Vec Ideal S1x4096 .f32)
    (r : Fin 256) (J : Fin 4096) :
    k0_pay1 X H Wx Wh B (ix2 r J)
      = (∑ k : Fin 1024, X (ix2 r k) * Wx (ix2 k J) + ∑ k : Fin 1024, H (ix2 r k) * Wh (ix2 k J)) + B (ix2 (0 : Fin 1) J) := by
  unfold k0_pay1
  show (FloatOps.matmul (F := Ideal) dot_S256x1024_S1024x4096_S256x4096_1_0_0_1_n_n none (truncf (F := Ideal) .bf16 X bitsLt_bf16_f32)
          (shapeCast S1024x4096 Wx shapeCasts_S1024x4096_S1024x4096) (constant (F := Ideal) S256x4096 .f32 0x00000000#32) (ix2 r J)
        + FloatOps.matmul (F := Ideal) dot_S256x1024_S1024x4096_S256x4096_1_0_0_1_n_n none (truncf (F := Ideal) .bf16 H bitsLt_bf16_f32)
          (shapeCast S1024x4096 Wh shapeCasts_S1024x4096_S1024x4096) (constant (F := Ideal) S256x4096 .f32 0x00000000#32) (ix2 r J))
        + broadcastTo S256x4096 (shapeCast S1x4096 B shapeCasts_S1x4096_S1x4096) broadcasts_S1x4096_S256x4096 (ix2 r J) = _
  rw [shapeCast_self, shapeCast_self, shapeCast_self, broadcastTo_1b_ab_apply,
    Cert.Lib.PlainProduct.matmul_zero_apply plain rfl rfl, Cert.Lib.PlainProduct.matmul_zero_apply plain rfl rfl]
  rfl

/-- The new cell state at row `r`, column `j` of the block. -/
theorem cell_apply (X H : Vec Ideal S256x1024 .f32) (Wx Wh : Vec Ideal S1024x4096 .bf16) (B : Vec Ideal S1x4096 .f32)
    (C : Vec Ideal S256x1024 .f32) (r : Fin 256) (j : Fin 1024) :
    k0_pay2 X H Wx Wh B C (ix2 r j)
      = Ideal.logistic (k0_pay1 X H Wx Wh B (ix2 r ⟨0 + j.val, by omega⟩)) * C (ix2 r j)
        + Ideal.logistic (k0_pay1 X H Wx Wh B (ix2 r ⟨1024 + j.val, by omega⟩))
          * Ideal.tanh (k0_pay1 X H Wx Wh B (ix2 r ⟨3072 + j.val, by omega⟩)) := by
  unfold k0_pay2
  generalize k0_pay1 X H Wx Wh B = G
  show Ideal.logistic (extractStridedSlice S256x1024 ![0, 0] G slices_S256x4096_o0_0_S256x1024 (ix2 r j)) * C (ix2 r j)
      + Ideal.logistic (extractStridedSlice S256x1024 ![0, 1024] G slices_S256x4096_o0_1024_S256x1024 (ix2 r j))
        * Ideal.tanh (extractStridedSlice S256x1024 ![0, 3072] G slices_S256x4096_o0_3072_S256x1024 (ix2 r j)) = _
  rw [slice2_axis1_eq, slice2_axis1_eq, slice2_axis1_eq]

/-- The new hidden state at row `r`, column `j` of the block. -/
theorem hidden_apply (X H : Vec Ideal S256x1024 .f32) (Wx Wh : Vec Ideal S1024x4096 .bf16) (B : Vec Ideal S1x4096 .f32)
    (C : Vec Ideal S256x1024 .f32) (r : Fin 256) (j : Fin 1024) :
    k0_pay3 X H Wx Wh B C (ix2 r j)
      = Ideal.logistic (k0_pay1 X H Wx Wh B (ix2 r ⟨2048 + j.val, by omega⟩)) * Ideal.tanh (k0_pay2 X H Wx Wh B C (ix2 r j)) := by
  unfold k0_pay3
  generalize k0_pay1 X H Wx Wh B = G
  generalize k0_pay2 X H Wx Wh B C = N
  show Ideal.logistic (extractStridedSlice S256x1024 ![0, 2048] G slices_S256x4096_o0_2048_S256x1024 (ix2 r j)) * Ideal.tanh (N (ix2 r j)) = _
  rw [slice2_axis1_eq]

end Cert.KernelIdeal.CellValue

end
-- ==== Proof.CellSpec.lean ====
/-
  The LSTM cell, entry by entry, on the extended reals.

  Inputs: a batch of 8192 rows x, h, c of width 1024; four gate weight matrices W_f, W_i, W_o, W_u of 2048 rows and 1024
  columns (rows 0..1023 multiply x, rows 1024..2047 multiply h); four bias vectors of length 1024. For a gate with weights
  W and bias b the pre-activation of batch row p and hidden unit j is

      gate(p, j) = ( Σ_{k<1024} x(p,k)·W(k,j)  +  Σ_{k<1024} h(p,k)·W(1024+k, j) )  +  b(j),

  and the new states are, with σ the logistic function,

      c'(p,j) = σ(gate_f)·c(p,j) + σ(gate_i)·tanh(gate_u),        h'(p,j) = σ(gate_o)·tanh(c'(p,j)).

  The one law the certificate needs is that a sum over 2048 indices is the sum over its first 1024 plus the sum over its
  last 1024: the reference contracts [x | h] against W in one sum of 2048 terms. It holds in any commutative additive
  monoid, so on all of the extended reals, infinities included: no finiteness is used anywhere.
-/
import Idealize.ShloMosaic.PureOps.Ideal
import Idealize.ShloMosaic.Lib.ValueIdx

noncomputable section

namespace Cert.LstmCell

open Idealize.ShloMosaic Idealize.ShloMosaic.ValueIdx
open scoped BigOperators

/-- The batch arrays x, h, c and both results: 8192 rows of 1024. -/
abbrev Batch : Shape := ⟨2, ![8192, 1024]⟩
/-- A gate's weights: 2048 rows (x-rows, then h-rows) of 1024. -/
abbrev Weights : Shape := ⟨2, ![2048, 1024]⟩
/-- A gate's bias. -/
abbrev Bias : Shape := ⟨1, ![1024]⟩

/-- A sum over 2048 indices is the sum over the first 1024 plus the sum over the last 1024. -/
theorem sum_halves {M : Type} [AddCommMonoid M] (f : Fin 2048 → M) :
    ∑ k : Fin 2048, f k = ∑ k : Fin 1024, f ⟨k.val, by omega⟩ + ∑ k : Fin 1024, f ⟨1024 + k.val, by omega⟩ :=
  Fin.sum_univ_add (a := 1024) (b := 1024) f

/-- A gate's pre-activation at batch row `p`, hidden unit `j`. -/
def gate (x h : Batch.Idx → EReal) (W : Weights.Idx → EReal) (b : Bias.Idx → EReal) (p : Fin 8192) (j : Fin 1024) : EReal :=
  (∑ k : Fin 1024, x (ix2 p k) * W (ix2 (⟨k.val, by omega⟩ : Fin 2048) j)
    + ∑ k : Fin 1024, h (ix2 p k) * W (ix2 (⟨1024 + k.val, by omega⟩ : Fin 2048) j)) + b (ix1 j)

/-- The new cell state at (p, j): forget gate times the old state plus input gate times the candidate. -/
def cellAt (x h c : Batch.Idx → EReal) (Wf Wi Wu : Weights.Idx → EReal) (bf bi bu : Bias.Idx → EReal)
    (p : Fin 8192) (j : Fin 1024) : EReal :=
  Ideal.logistic (gate x h Wf bf p j) * c (ix2 p j) + Ideal.logistic (gate x h Wi bi p j) * Ideal.tanh (gate x h Wu bu p j)

/-- The new hidden state at (p, j): output gate times tanh of the new cell state. -/
def hiddenAt (x h c : Batch.Idx → EReal) (Wf Wi Wo Wu : Weights.Idx → EReal) (bf bi bo bu : Bias.Idx → EReal)
    (p : Fin 8192) (j : Fin 1024) : EReal :=
  Ideal.logistic (gate x h Wo bo p j) * Ideal.tanh (cellAt x h c Wf Wi Wu bf bi bu p j)

/-- The new cell state as an array. -/
def cellArray (x h c : Batch.Idx → EReal) (Wf Wi Wu : Weights.Idx → EReal) (bf bi bu : Bias.Idx → EReal) : Batch.Idx → EReal :=
  fun i => cellAt x h c Wf Wi Wu bf bi bu (i 0) (i 1)

/-- The new hidden state as an array. -/
def hiddenArray (x h c : Batch.Idx → EReal) (Wf Wi Wo Wu : Weights.Idx → EReal) (bf bi bo bu : Bias.Idx → EReal) : Batch.Idx → EReal :=
  fun i => hiddenAt x h c Wf Wi Wo Wu bf bi bo bu (i 0) (i 1)

theorem cellArray_apply (x h c : Batch.Idx → EReal) (Wf Wi Wu : Weights.Idx → EReal) (bf bi bu : Bias.Idx → EReal)
    (p : Fin 8192) (j : Fin 1024) : cellArray x h c Wf Wi Wu bf bi bu (ix2 p j) = cellAt x h c Wf Wi Wu bf bi bu p j := rfl

theorem hiddenArray_apply (x h c : Batch.Idx → EReal) (Wf Wi Wo Wu : Weights.Idx → EReal) (bf bi bo bu : Bias.Idx → EReal)
    (p : Fin 8192) (j : Fin 1024) : hiddenArray x h c Wf Wi Wo Wu bf bi bo bu (ix2 p j) = hiddenAt x h c Wf Wi Wo Wu bf bi bo bu p j := rfl

end Cert.LstmCell

end
-- ==== Proof.CellBlocks.lean ====
/-
  The body's stores are the specification's entries.

  Suppose the six blocks the body reads at a point are what the program lays out: row r of the blocks X, H, C is row p of
  x, h, c; column g·1024 + j of the x-weights block Wx is column j of the x-rows (rows 0..1023) of gate g's weights, and of
  the h-weights block Wh column j of its h-rows (rows 1024..2047); entry g·1024 + j of the bias row is entry j of gate g's
  bias. Then band g of the body's pre-activation matrix at (r, j) is gate g's pre-activation at (p, j), and what the body
  stores at (r, j) is the specification's new cell state and new hidden state at (p, j). Gates in band order: forget (0),
  input (1), output (2), candidate (3).
-/
import proofs.«163377_j49039936586195_1_alg».proof.Proof.CellPayload
import proofs.«163377_j49039936586195_1_alg».proof.Proof.CellSpec

noncomputable section

namespace Cert.KernelIdeal.CellValue

open Cert.KernelIdeal Cert.KernelIdeal.Gen
open Idealize.ShloMosaic Idealize.ShloMosaic.ValueIdx Cert.LstmCell
open scoped BigOperators

variable (X H C : Vec Ideal S256x1024 .f32) (Wx Wh : Vec Ideal S1024x4096 .bf16) (B : Vec Ideal S1x4096 .f32)
  (x h c : Batch.Idx → EReal) (Wg : Fin 4 → Weights.Idx → EReal) (bg : Fin 4 → Bias.Idx → EReal)
  (p : Fin 8192) (r : Fin 256) (j : Fin 1024)

/-- Band `g` of the body's pre-activations at (r, j) is gate `g`'s pre-activation at (p, j). -/
theorem gate_of_blocks (g : Fin 4) (J : Fin 4096) (hJ : J.val = g.val * 1024 + j.val)
    (hX : ∀ k : Fin 1024, X (ix2 r k) = x (ix2 p k)) (hH : ∀ k : Fin 1024, H (ix2 r k) = h (ix2 p k))
    (hWx : ∀ (g : Fin 4) (k : Fin 1024) (J : Fin 4096), J.val = g.val * 1024 + j.val →
      Wx (ix2 k J) = Wg g (ix2 (⟨k.val, by omega⟩ : Fin 2048) j))
    (hWh : ∀ (g : Fin 4) (k : Fin 1024) (J : Fin 4096), J.val = g.val * 1024 + j.val →
      Wh (ix2 k J) = Wg g (ix2 (⟨1024 + k.val, by omega⟩ : Fin 2048) j))
    (hB : ∀ (g : Fin 4) (J : Fin 4096), J.val = g.val * 1024 + j.val → B (ix2 (0 : Fin 1) J) = bg g (ix1 j)) :
    k0_pay1 X H Wx Wh B (ix2 r J) = gate x h (Wg g) (bg g) p j := by
  rw [gates_apply]
  unfold gate
  rw [hB g J hJ]
  congr 1
  congr 1
  · exact Finset.sum_congr rfl fun k _ => by rw [hX k, hWx g k J hJ]
  · exact Finset.sum_congr rfl fun k _ => by rw [hH k, hWh g k J hJ]

/-- What the body stores into the cell-state block at (r, j) is the new cell state at (p, j). -/
theorem cell_of_blocks
    (hX : ∀ k : Fin 1024, X (ix2 r k) = x (ix2 p k)) (hH : ∀ k : Fin 1024, H (ix2 r k) = h (ix2 p k))
    (hC : C (ix2 r j) = c (ix2 p j))
    (hWx : ∀ (g : Fin 4) (k : Fin 1024) (J : Fin 4096), J.val = g.val * 1024 + j.val →
      Wx (ix2 k J) = Wg g (ix2 (⟨k.val, by omega⟩ : Fin 2048) j))
    (hWh : ∀ (g : Fin 4) (k : Fin 1024) (J : Fin 4096), J.val = g.val * 1024 + j.val →
      Wh (ix2 k J) = Wg g (ix2 (⟨1024 + k.val, by omega⟩ : Fin 2048) j))
    (hB : ∀ (g : Fin 4) (J : Fin 4096), J.val = g.val * 1024 + j.val → B (ix2 (0 : Fin 1) J) = bg g (ix1 j)) :
    k0_pay2 X H Wx Wh B C (ix2 r j) = cellAt x h c (Wg 0) (Wg 1) (Wg 3) (bg 0) (bg 1) (bg 3) p j := by
  rw [cell_apply, hC,
    gate_of_blocks X H Wx Wh B x h Wg bg p r j 0 _ (by show 0 + j.val = 0 * 1024 + j.val; omega) hX hH hWx hWh hB,
    gate_of_blocks X H Wx Wh B x h Wg bg p r j 1 _ (by show 1024 + j.val = 1 * 1024 + j.val; omega) hX hH hWx hWh hB,
    gate_of_blocks X H Wx Wh B x h Wg bg p r j 3 _ (by show 3072 + j.val = 3 * 1024 + j.val; omega) hX hH hWx hWh hB]
  rfl

/-- What the body stores into the hidden-state block at (r, j) is the new hidden state at (p, j). -/
theorem hidden_of_blocks
    (hX : ∀ k : Fin 1024, X (ix2 r k) = x (ix2 p k)) (hH : ∀ k : Fin 1024, H (ix2 r k) = h (ix2 p k))
    (hC : C (ix2 r j) = c (ix2 p j))
    (hWx : ∀ (g : Fin 4) (k : Fin 1024) (J : Fin 4096), J.val = g.val * 1024 + j.val →
      Wx (ix2 k J) = Wg g (ix2 (⟨k.val, by omega⟩ : Fin 2048) j))
    (hWh : ∀ (g : Fin 4) (k : Fin 1024) (J : Fin 4096), J.val = g.val * 1024 + j.val →
      Wh (ix2 k J) = Wg g (ix2 (⟨1024 + k.val, by omega⟩ : Fin 2048) j))
    (hB : ∀ (g : Fin 4) (J : Fin 4096), J.val = g.val * 1024 + j.val → B (ix2 (0 : Fin 1) J) = bg g (ix1 j)) :
    k0_pay3 X H Wx Wh B C (ix2 r j)
      = hiddenAt x h c (Wg 0) (Wg 1) (Wg 2) (Wg 3) (bg 0) (bg 1) (bg 2) (bg 3) p j := by
  rw [hidden_apply, cell_of_blocks X H C Wx Wh B x h c Wg bg p r j hX hH hC hWx hWh hB,
    gate_of_blocks X H Wx Wh B x h Wg bg p r j 2 _ (by show 2048 + j.val = 2 * 1024 + j.val; omega) hX hH hWx hWh hB]
  rfl

end Cert.KernelIdeal.CellValue

end
-- ==== Proof.CellArrays.lean ====
/-
  The kernel's two result arrays are the specification's.

  Point t of the 32-point grid reads rows 256·t .. 256·t+255 of x, h and c, the whole x-weights and h-weights matrices and the
  bias row, and writes back rows 256·t .. 256·t+255 of both results. Its blocks are restrictions of the arrays the region
  finds, so what it writes back is the restriction to those rows of the specification's new hidden state and new cell
  state; the 32 row blocks cover all 8192 rows (row i is in block i / 256), so after the run each result array is the
  specification's array.
-/
import proofs.«163377_j49039936586195_1_alg».proof.Proof.CellBody
import proofs.«163377_j49039936586195_1_alg».proof.Proof.CellWeights
import proofs.«163377_j49039936586195_1_alg».proof.Proof.CellBlocks

set_option maxRecDepth 16384

noncomputable section

namespace Cert.KernelIdeal.CellValue

open Cert.KernelIdeal Cert.KernelIdeal.Gen Cert.KernelIdeal.Cell
open Idealize.ShloMosaic Idealize.ShloMosaic.TcCoe Idealize.ShloMosaic.ValueIdx Idealize.SL.Sem Cert.LstmCell
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the row-blocked windows (x, h, c and both results) are at block row t, block
    column 0; the constant windows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Row r of point t's row blocks is row 256·t + r of the arrays. -/
def rowOf (t : Fin cfg0.N) (r : Fin 256) : Fin 8192 :=
  ⟨256 * t.val + r.val, by have := t.isLt; have hN : cfg0.N = 32 := N_0; have := r.isLt; omega⟩

/-! ## The input blocks are restrictions of the arrays -/

theorem rows0_at (c : Dev nD) (t : Fin cfg0.N) (r : Fin 256) (k : Fin 1024) :
    iblk m c 0 t (ix2 r k) = ((m ((c : Thread nD τ).loc main_arg0)) : S8192x1024.Idx → EReal) (ix2 (rowOf t r) k) := by
  show V m c main_arg0 (((cfg0.win 0).blk t).view.emb (ix2 r k)) = _
  rw [V_main_arg0]
  refine congrArg _ (funext fun a => Fin.ext ?_)
  obtain ⟨e00, e01, e10, e11, e20, e21, -⟩ := idx_facts t
  match a with
  | ⟨0, _⟩ => show win0_0.index t (0 : Fin 2) * 256 + 1 * r.val = 256 * t.val + r.val; omega
  | ⟨1, _⟩ => show win0_0.index t (1 : Fin 2) * 1024 + 1 * k.val = k.val; omega
theorem rows1_at (c : Dev nD) (t : Fin cfg0.N) (r : Fin 256) (k : Fin 1024) :
    iblk m c 1 t (ix2 r k) = ((m ((c : Thread nD τ).loc main_arg1)) : S8192x1024.Idx → EReal) (ix2 (rowOf t r) k) := by
  show V m c main_arg1 (((cfg0.win 1).blk t).view.emb (ix2 r k)) = _
  rw [V_main_arg1]
  refine congrArg _ (funext fun a => Fin.ext ?_)
  obtain ⟨e00, e01, e10, e11, e20, e21, -⟩ := idx_facts t
  match a with
  | ⟨0, _⟩ => show win0_1.index t (0 : Fin 2) * 256 + 1 * r.val = 256 * t.val + r.val; omega
  | ⟨1, _⟩ => show win0_1.index t (1 : Fin 2) * 1024 + 1 * k.val = k.val; omega
theorem rows2_at (c : Dev nD) (t : Fin cfg0.N) (r : Fin 256) (k : Fin 1024) :
    iblk m c 2 t (ix2 r k) = ((m ((c : Thread nD τ).loc main_arg2)) : S8192x1024.Idx → EReal) (ix2 (rowOf t r) k) := by
  show V m c main_arg2 (((cfg0.win 2).blk t).view.emb (ix2 r k)) = _
  rw [V_main_arg2]
  refine congrArg _ (funext fun a => Fin.ext ?_)
  obtain ⟨e00, e01, e10, e11, e20, e21, -⟩ := idx_facts t
  match a with
  | ⟨0, _⟩ => show win0_2.index t (0 : Fin 2) * 256 + 1 * r.val = 256 * t.val + r.val; omega
  | ⟨1, _⟩ => show win0_2.index t (1 : Fin 2) * 1024 + 1 * k.val = k.val; omega

theorem xweights_blk (c : Dev nD) (t : Fin cfg0.N) (k : Fin 1024) (J : Fin 4096) :
    iblk m c 3 t (ix2 k J) = (V m c main_v9 : S1024x4096.Idx → EReal) (ix2 k J) := by
  show V m c main_v9 (((cfg0.win 3).blk t).view.emb (ix2 k J)) = _
  refine congrArg _ (funext fun a => Fin.ext ?_)
  obtain ⟨-, -, -, -, -, -, e30, e31, -⟩ := idx_facts t
  match a with
  | ⟨0, _⟩ => show win0_3.index t (0 : Fin 2) * 1024 + 1 * k.val = k.val; omega
  | ⟨1, _⟩ => show win0_3.index t (1 : Fin 2) * 4096 + 1 * J.val = J.val; omega

theorem hweights_blk (c : Dev nD) (t : Fin cfg0.N) (k : Fin 1024) (J : Fin 4096) :
    iblk m c 4 t (ix2 k J) = (V m c main_v11 : S1024x4096.Idx → EReal) (ix2 k J) := by
  show V m c main_v11 (((cfg0.win 4).blk t).view.emb (ix2 k J)) = _
  refine congrArg _ (funext fun a => Fin.ext ?_)
  obtain ⟨-, -, -, -, -, -, -, -, e40, e41, -⟩ := idx_facts t
  match a with
  | ⟨0, _⟩ => show win0_4.index t (0 : Fin 2) * 1024 + 1 * k.val = k.val; omega
  | ⟨1, _⟩ => show win0_4.index t (1 : Fin 2) * 4096 + 1 * J.val = J.val; omega

theorem bias_blk (c : Dev nD) (t : Fin cfg0.N) (J : Fin 4096) :
    iblk m c 5 t (ix2 (0 : Fin 1) J) = (V m c main_v13 : S1x4096.Idx → EReal) (ix2 (0 : Fin 1) J) := by
  show V m c main_v13 (((cfg0.win 5).blk t).view.emb (ix2 (0 : Fin 1) J)) = _
  refine congrArg _ (funext fun a => Fin.ext ?_)
  obtain ⟨-, -, -, -, -, -, -, -, -, -, e50, e51, -⟩ := idx_facts t
  match a with
  | ⟨0, _⟩ => show win0_5.index t (0 : Fin 2) * 1 + 1 * 0 = 0; omega
  | ⟨1, _⟩ => show win0_5.index t (1 : Fin 2) * 4096 + 1 * J.val = J.val; omega

/-! ## The result arrays -/

/-- The four gates' weights and biases, in band order: forget, input, output, candidate. -/
abbrev gateW (c : Dev nD) : Fin 4 → Weights.Idx → EReal := ![(m ((c : Thread nD τ).loc main_arg3)), (m ((c : Thread nD τ).loc main_arg5)), (m ((c : Thread nD τ).loc main_arg7)), (m ((c : Thread nD τ).loc main_arg9))]
abbrev gateB (c : Dev nD) : Fin 4 → Bias.Idx → EReal := ![(m ((c : Thread nD τ).loc main_arg4)), (m ((c : Thread nD τ).loc main_arg6)), (m ((c : Thread nD τ).loc main_arg8)), (m ((c : Thread nD τ).loc main_arg10))]

/-- The new hidden state of the launch memory's arguments. -/
def hiddenFinal (c : Dev nD) : Batch.Idx → EReal :=
  hiddenArray (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg7)) (m ((c : Thread nD τ).loc main_arg9)) (m ((c : Thread nD τ).loc main_arg4)) (m ((c : Thread nD τ).loc main_arg6)) (m ((c : Thread nD τ).loc main_arg8)) (m ((c : Thread nD τ).loc main_arg10))

/-- The new cell state of the launch memory's arguments. -/
def cellFinal (c : Dev nD) : Batch.Idx → EReal :=
  cellArray (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg9)) (m ((c : Thread nD τ).loc main_arg4)) (m ((c : Thread nD τ).loc main_arg6)) (m ((c : Thread nD τ).loc main_arg10))

/-- What point t writes back into the hidden-state array is rows 256·t .. 256·t+255 of the specification's. -/
theorem hidden_flushed (c : Dev nD) (t : Fin cfg0.N) :
    (dats m 0 c).flushed 6 t = ((cfg0.win 6).blk t).view.read (Elt Ideal) (hiddenFinal m c) := by
  show (cfg0.win 6).cut (grid0.coords t) ((dats m 0 c).after 6 t) = _
  rw [after6]
  unfold hiddenBlock
  rw [View.canon_unit_zero hz]
  simp only [View.ld_unit_zero (S := S256x1024) hz, View.ld_unit_zero (S := S1024x4096) hz, View.ld_unit_zero (S := S1x4096) hz]
  funext y
  obtain ⟨r, j, rfl⟩ : ∃ (r : Fin 256) (j : Fin 1024), y = ix2 r j := ⟨y 0, y 1, eq_ix2 y⟩
  have hemb : ((cfg0.win 6).blk t).view.emb (ix2 r j) = (ix2 (rowOf t r) j : S8192x1024.Idx) := by
    refine funext fun a => Fin.ext ?_
    obtain ⟨-, -, -, -, -, -, -, -, -, -, -, -, e60, e61, e70, e71⟩ := idx_facts t
    match a with
    | ⟨0, _⟩ => show win0_6.index t (0 : Fin 2) * 256 + 1 * r.val = 256 * t.val + r.val; omega
    | ⟨1, _⟩ => show win0_6.index t (1 : Fin 2) * 1024 + 1 * j.val = j.val; omega
  show _ = hiddenFinal m c (((cfg0.win 6).blk t).view.emb (ix2 r j))
  rw [hemb]
  unfold hiddenFinal
  rw [hiddenArray_apply]
  exact hidden_of_blocks _ _ _ _ _ _ _ _ _ (gateW m c) (gateB m c) (rowOf t r) r j
    (fun k => rows0_at m c t r k) (fun k => rows1_at m c t r k) (rows2_at m c t r j)
    (fun g k J hJ => (xweights_blk m c t k J).trans (xweights_at m c g k j J hJ))
    (fun g k J hJ => (hweights_blk m c t k J).trans (hweights_at m c g k j J hJ))
    (fun g J hJ => (bias_blk m c t J).trans (bias_at m c g j J hJ))

/-- What point t writes back into the cell-state array is rows 256·t .. 256·t+255 of the specification's. -/
theorem cell_flushed (c : Dev nD) (t : Fin cfg0.N) :
    (dats m 0 c).flushed 7 t = ((cfg0.win 7).blk t).view.read (Elt Ideal) (cellFinal m c) := by
  show (cfg0.win 7).cut (grid0.coords t) ((dats m 0 c).after 7 t) = _
  rw [after7]
  unfold cellBlock
  rw [View.canon_unit_zero hz]
  simp only [View.ld_unit_zero (S := S256x1024) hz, View.ld_unit_zero (S := S1024x4096) hz, View.ld_unit_zero (S := S1x4096) hz]
  funext y
  obtain ⟨r, j, rfl⟩ : ∃ (r : Fin 256) (j : Fin 1024), y = ix2 r j := ⟨y 0, y 1, eq_ix2 y⟩
  have hemb : ((cfg0.win 7).blk t).view.emb (ix2 r j) = (ix2 (rowOf t r) j : S8192x1024.Idx) := by
    refine funext fun a => Fin.ext ?_
    obtain ⟨-, -, -, -, -, -, -, -, -, -, -, -, e60, e61, e70, e71⟩ := idx_facts t
    match a with
    | ⟨0, _⟩ => show win0_7.index t (0 : Fin 2) * 256 + 1 * r.val = 256 * t.val + r.val; omega
    | ⟨1, _⟩ => show win0_7.index t (1 : Fin 2) * 1024 + 1 * j.val = j.val; omega
  show _ = cellFinal m c (((cfg0.win 7).blk t).view.emb (ix2 r j))
  rw [hemb]
  unfold cellFinal
  rw [cellArray_apply]
  exact cell_of_blocks _ _ _ _ _ _ _ _ _ (gateW m c) (gateB m c) (rowOf t r) r j
    (fun k => rows0_at m c t r k) (fun k => rows1_at m c t r k) (rows2_at m c t r j)
    (fun g k J hJ => (xweights_blk m c t k J).trans (xweights_at m c g k j J hJ))
    (fun g k J hJ => (hweights_blk m c t k J).trans (hweights_at m c g k j J hJ))
    (fun g J hJ => (bias_blk m c t J).trans (bias_at m c g j J hJ))

/-! ## The row blocks cover the arrays -/

theorem mem_blk6 (t : Fin cfg0.N) (i : S8192x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v14_0).slice (win0_6.rect t)).set ↔ _
  rw [View.set_slice_whole, Rect.mem_set_unit]
  exact Iff.rfl

/-- Row i of the array is in the block of point i / 256. -/
theorem cover6 (i : S8192x1024.Idx) : ∃ t : Fin cfg0.N, (cfg0.win 6).flush t = true ∧ i ∈ ((cfg0.win 6).blk t).view.set := by
  have hi0 : (i 0).val < 8192 := (i 0).isLt
  have hi1 : (i 1).val < 1024 := (i 1).isLt
  have hN : cfg0.N = 32 := N_0
  refine ⟨⟨(i 0).val / 256, by omega⟩, flush0_6 _, ?_⟩
  rw [mem_blk6]
  obtain ⟨-, -, -, -, -, -, -, -, -, -, -, -, e60, e61, e70, e71⟩ := idx_facts ⟨(i 0).val / 256, by omega⟩
  intro a
  match a with
  | ⟨0, _⟩ =>
    show win0_6.index ⟨(i 0).val / 256, _⟩ (0 : Fin 2) * 256 ≤ (i 0).val ∧ (i 0).val < win0_6.index ⟨(i 0).val / 256, _⟩ (0 : Fin 2) * 256 + 256
    rw [e60]; show (i 0).val / 256 * 256 ≤ (i 0).val ∧ (i 0).val < (i 0).val / 256 * 256 + 256; omega
  | ⟨1, _⟩ =>
    show win0_6.index ⟨(i 0).val / 256, _⟩ (1 : Fin 2) * 1024 ≤ (i 1).val ∧ (i 1).val < win0_6.index ⟨(i 0).val / 256, _⟩ (1 : Fin 2) * 1024 + 1024
    rw [e61]; omega

theorem mem_blk7 (t : Fin cfg0.N) (i : S8192x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v14_1).slice (win0_7.rect t)).set ↔ _
  rw [View.set_slice_whole, Rect.mem_set_unit]
  exact Iff.rfl

/-- Row i of the array is in the block of point i / 256. -/
theorem cover7 (i : S8192x1024.Idx) : ∃ t : Fin cfg0.N, (cfg0.win 7).flush t = true ∧ i ∈ ((cfg0.win 7).blk t).view.set := by
  have hi0 : (i 0).val < 8192 := (i 0).isLt
  have hi1 : (i 1).val < 1024 := (i 1).isLt
  have hN : cfg0.N = 32 := N_0
  refine ⟨⟨(i 0).val / 256, by omega⟩, flush0_7 _, ?_⟩
  rw [mem_blk7]
  obtain ⟨-, -, -, -, -, -, -, -, -, -, -, -, e60, e61, e70, e71⟩ := idx_facts ⟨(i 0).val / 256, by omega⟩
  intro a
  match a with
  | ⟨0, _⟩ =>
    show win0_7.index ⟨(i 0).val / 256, _⟩ (0 : Fin 2) * 256 ≤ (i 0).val ∧ (i 0).val < win0_7.index ⟨(i 0).val / 256, _⟩ (0 : Fin 2) * 256 + 256
    rw [e70]; show (i 0).val / 256 * 256 ≤ (i 0).val ∧ (i 0).val < (i 0).val / 256 * 256 + 256; omega
  | ⟨1, _⟩ =>
    show win0_7.index ⟨(i 0).val / 256, _⟩ (1 : Fin 2) * 1024 ≤ (i 1).val ∧ (i 1).val < win0_7.index ⟨(i 0).val / 256, _⟩ (1 : Fin 2) * 1024 + 1024
    rw [e71]; omega

theorem hidden_final (c : Dev nD) : (dats m 0 c).arrAt 6 cfg0.N = hiddenFinal m c :=
  (dats m 0 c).arrAt_eq_of_cover 6 (hiddenFinal m c) (fun t _ => hidden_flushed m c t) cover6

theorem cell_final (c : Dev nD) : (dats m 0 c).arrAt 7 cfg0.N = cellFinal m c :=
  (dats m 0 c).arrAt_eq_of_cover 7 (cellFinal m c) (fun t _ => cell_flushed m c t) cover7

/-! ## The run, read -/

/-- Every weakly fair execution of the idealized kernel's program terminates with the two results at the specification's
    new hidden state and new cell state of the launch memory's arguments, and the arguments as launched. -/
theorem run : θ_run defs (onTc (τ := τ) (main (F := Ideal))) ⟨m, fun _ => 0, ρ⟩ fun r => ∀ c : Dev nD,
      r.2.mem ((c.tc : Thread nD τ).loc main_v14_0) = hiddenFinal m c
      ∧ r.2.mem ((c.tc : Thread nD τ).loc main_v14_1) = cellFinal m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨((h c).1 6).trans (hidden_final m c), ((h c).1 7).trans (cell_final m c),
      kept_of_post m (dats m) (A_eq m) r h c⟩)
    (run_main m ρ)

end Cert.KernelIdeal.CellValue

end
-- ==== Proof.RefCell.lean ====
/-
  The reference computes the specification's LSTM cell.

  The reference lays x and h side by side as one 8192×2048 matrix, lays the four gate weight matrices side by side as one
  2048×4096 matrix and the four biases end to end, contracts the two in ONE sum of 2048 terms and adds the bias. Column
  g·1024 + j of the weights is column j of gate g's matrix, and term k of the sum is x(p,k)·W_g(k,j) for k < 1024 and
  h(p,k−1024)·W_g(k,j) for k ≥ 1024: split at 1024, the sum is the specification's two sums. The gates' logistic function
  is spelt 1 / (1 + exp(−v)), which on the extended reals is the logistic function by definition; the rest is the
  specification's arithmetic entry by entry.
-/
import proofs.«163377_j49039936586195_1_alg».proof.Proof.Gen.ReferenceIdeal.Read
import proofs.«163377_j49039936586195_1_alg».proof.Proof.CellSpec
import proofs.«163377_j49039936586195_1_alg».proof.Proof.LibBands
import Idealize.ShloMosaic.Lib.IdealHost

noncomputable section

namespace Cert.ReferenceIdeal.RefValue

open Cert.ReferenceIdeal Cert.ReferenceIdeal.Gen Cert.ReferenceIdeal.Read
open Idealize.ShloMosaic Idealize.ShloMosaic.ValueIdx Cert.LstmCell
open scoped BigOperators

variable (x0 x1 x2 : (⟨S8192x1024, .f32⟩ : BufTy).Contents (Elt Ideal)) (x3 : (⟨S2048x1024, .f32⟩ : BufTy).Contents (Elt Ideal)) (x4 : (⟨S1024, .f32⟩ : BufTy).Contents (Elt Ideal)) (x5 : (⟨S2048x1024, .f32⟩ : BufTy).Contents (Elt Ideal)) (x6 : (⟨S1024, .f32⟩ : BufTy).Contents (Elt Ideal)) (x7 : (⟨S2048x1024, .f32⟩ : BufTy).Contents (Elt Ideal)) (x8 : (⟨S1024, .f32⟩ : BufTy).Contents (Elt Ideal)) (x9 : (⟨S2048x1024, .f32⟩ : BufTy).Contents (Elt Ideal)) (x10 : (⟨S1024, .f32⟩ : BufTy).Contents (Elt Ideal))

/-! ## Where each operation reads its operand -/

theorem lhs_at (p : Fin 8192) (J : Fin 4096) (k : Fin 2048) : lidx_main_v3 (ix2 p J) k = ix2 p k :=
  funext fun a => Fin.ext (by match a with | ⟨0, _⟩ => rfl | ⟨1, _⟩ => rfl)
theorem rhs_at (p : Fin 8192) (J : Fin 4096) (k : Fin 2048) : ridx_main_v3 (ix2 p J) k = ix2 k J :=
  funext fun a => Fin.ext (by match a with | ⟨0, _⟩ => rfl | ⟨1, _⟩ => rfl)
theorem bias_at (p : Fin 8192) (J : Fin 4096) : idx_main_v4 (idx_main_v5 (ix2 p J)) = ix1 J :=
  funext fun a => Fin.ext (by match a with | ⟨0, _⟩ => rfl)
theorem band0_at (p : Fin 8192) (j : Fin 1024) : idx_main_v7 (ix2 p j) = ix2 p (⟨j.val, by omega⟩ : Fin 4096) :=
  funext fun a => Fin.ext (by match a with | ⟨0, _⟩ => rfl | ⟨1, _⟩ => rfl)
theorem band1_at (p : Fin 8192) (j : Fin 1024) : idx_main_v8 (ix2 p j) = ix2 p (⟨1024 + j.val, by omega⟩ : Fin 4096) :=
  funext fun a => Fin.ext (by match a with | ⟨0, _⟩ => rfl | ⟨1, _⟩ => rfl)
theorem band2_at (p : Fin 8192) (j : Fin 1024) : idx_main_v9 (ix2 p j) = ix2 p (⟨2048 + j.val, by omega⟩ : Fin 4096) :=
  funext fun a => Fin.ext (by match a with | ⟨0, _⟩ => rfl | ⟨1, _⟩ => rfl)
theorem band3_at (p : Fin 8192) (j : Fin 1024) : idx_main_v10 (ix2 p j) = ix2 p (⟨3072 + j.val, by omega⟩ : Fin 4096) :=
  funext fun a => Fin.ext (by match a with | ⟨0, _⟩ => rfl | ⟨1, _⟩ => rfl)

/-! ## The pre-activations -/

/-- Column g·1024 + j of the reference's 8192×4096 pre-activation matrix is gate g's pre-activation: the one sum over
    2048 split at 1024. -/
theorem gate_eq (g : Fin 4) (p : Fin 8192) (j : Fin 1024) (J : Fin 4096) (hJ : J.val = g.val * 1024 + j.val) :
    val_main_v6 (F := Ideal) x0 x1 x3 x4 x5 x6 x7 x8 x9 x10 (ix2 p J) = gate x0 x1 (![x3, x5, x7, x9] g) (![x4, x6, x8, x10] g) p j := by
  rw [val_main_v6_apply, val_main_v3_apply, val_main_v5_apply, val_main_v4_apply, bias_at, sum_halves]
  unfold gate
  show (_ + _) + _ = (_ + _) + _
  congr 1
  · congr 1
    · refine Finset.sum_congr rfl fun k _ => ?_
      rw [lhs_at, rhs_at]
      congr 1
      · exact Cert.Lib.Bands.two_bands_left x0 x1 concatenates_S8192x1024_S8192x1024_S8192x2048_d1 p k _ rfl
      · exact Cert.Lib.Bands.four_bands_apply x3 x5 x7 x9 concatenates_S2048x1024_S2048x1024_S2048x1024_S2048x1024_S2048x4096_d1 g _ j J hJ
    · refine Finset.sum_congr rfl fun k _ => ?_
      rw [lhs_at, rhs_at]
      congr 1
      · exact Cert.Lib.Bands.two_bands_right x0 x1 concatenates_S8192x1024_S8192x1024_S8192x2048_d1 p k _ rfl
      · exact Cert.Lib.Bands.four_bands_apply x3 x5 x7 x9 concatenates_S2048x1024_S2048x1024_S2048x1024_S2048x1024_S2048x4096_d1 g _ j J hJ
  · exact Cert.Lib.Bands.four_segments_apply x4 x6 x8 x10 concatenates_S1024_S1024_S1024_S1024_S4096_d0 g j J hJ

/-! ## The results -/

/-- The reference's second result is the specification's new cell state. -/
theorem cell_eq : val_main_v32 (F := Ideal) x0 x1 x2 x3 x4 x5 x6 x7 x8 x9 x10 = cellArray x0 x1 x2 x3 x5 x9 x4 x6 x10 := by
  funext i
  obtain ⟨p, j, rfl⟩ : ∃ (p : Fin 8192) (j : Fin 1024), i = ix2 p j := ⟨i 0, i 1, eq_ix2 i⟩
  rw [cellArray_apply]
  unfold cellAt
  rw [val_main_v32_apply, val_main_v30_apply, val_main_v31_apply, val_main_v16_apply, val_main_v22_apply, val_main_v29_apply,
    val_main_v15_apply, val_main_v21_apply, val_main_v14_apply, val_main_v20_apply, val_main_v13_apply, val_main_v19_apply,
    val_main_v12_apply, val_main_v18_apply, val_main_v11_apply, val_main_v17_apply,
    val_main_v7_apply, val_main_v8_apply, val_main_v10_apply, band0_at, band1_at, band3_at,
    gate_eq x0 x1 x3 x4 x5 x6 x7 x8 x9 x10 0 p j _ (by show j.val = 0 * 1024 + j.val; omega),
    gate_eq x0 x1 x3 x4 x5 x6 x7 x8 x9 x10 1 p j _ (by show 1024 + j.val = 1 * 1024 + j.val; omega),
    gate_eq x0 x1 x3 x4 x5 x6 x7 x8 x9 x10 3 p j _ (by show 3072 + j.val = 3 * 1024 + j.val; omega)]
  simp only [val_main_cst_0_apply, val_main_cst_2_apply, val_main_cst_apply, val_main_cst_1_apply, Ideal.ofBits_def, Ideal.ofBits_one_f32]
  rfl

/-- The reference's first result is the specification's new hidden state. -/
theorem hidden_eq : val_main_v34 (F := Ideal) x0 x1 x2 x3 x4 x5 x6 x7 x8 x9 x10 = hiddenArray x0 x1 x2 x3 x5 x7 x9 x4 x6 x8 x10 := by
  funext i
  obtain ⟨p, j, rfl⟩ : ∃ (p : Fin 8192) (j : Fin 1024), i = ix2 p j := ⟨i 0, i 1, eq_ix2 i⟩
  rw [hiddenArray_apply]
  unfold hiddenAt
  rw [val_main_v34_apply, val_main_v33_apply, cell_eq, cellArray_apply, val_main_v28_apply, val_main_v27_apply, val_main_v26_apply,
    val_main_v25_apply, val_main_v24_apply, val_main_v23_apply, val_main_v9_apply, band2_at,
    gate_eq x0 x1 x3 x4 x5 x6 x7 x8 x9 x10 2 p j _ (by show 2048 + j.val = 2 * 1024 + j.val; omega)]
  simp only [val_main_cst_4_apply, val_main_cst_3_apply, Ideal.ofBits_def, Ideal.ofBits_one_f32]
  rfl

end Cert.ReferenceIdeal.RefValue

end
-- ==== Proof.lean ====
/-
  An LSTM cell step: the fused kernel against the plain reference, on the extended reals.

  Both programs take a batch x, h, c of 8192 rows of width 1024, four gate weight matrices of 2048 rows (x-rows, then
  h-rows) and 1024 columns, and four biases, and return the new hidden state h' = σ(g_o)·tanh(c') and the new cell state
  c' = σ(g_f)·c + σ(g_i)·tanh(g_u), where the pre-activation of gate g is g_g = [x | h]·W_g + b_g.

  The reference forms [x | h] and contracts it with the four weight matrices laid side by side in one sum of 2048 terms.
  The kernel's program first re-lays the weights on the host — the x-rows of the four gates side by side, the h-rows side
  by side, both rounded to bf16 — and then, 256 batch rows at a time, adds the two 1024-term sums x·Wx + h·Wh. On the
  extended reals the roundings are the identity and a sum of 2048 terms is the sum of its two halves (in any commutative
  monoid: no finiteness is needed), so entry by entry both programs compute one function, the specification's
  (Proof/CellSpec.lean). The reference spells the logistic function 1 / (1 + exp(−v)); there that IS the logistic
  function.

  The kernel's programs run to the end and keep their arguments (Proof/CellEntry*.lean, CellBody*.lean: the region's
  pipeline over the body's triple); the idealization rewrote nothing, so it preserves the kernel trivially.
-/
import proofs.«163377_j49039936586195_1_alg».proof.Defs
import proofs.«163377_j49039936586195_1_alg».proof.Proof.Gen.Kernel
import proofs.«163377_j49039936586195_1_alg».proof.Proof.Gen.KernelIdeal
import proofs.«163377_j49039936586195_1_alg».proof.Proof.Gen.ReferenceIdeal
import proofs.«163377_j49039936586195_1_alg».proof.Proof.Gen.Pre_finite_inputs
import proofs.«163377_j49039936586195_1_alg».proof.Proof.Gen.ReferenceIdeal.Run
import proofs.«163377_j49039936586195_1_alg».proof.Proof.Gen.ReferenceIdeal.Read
import proofs.«163377_j49039936586195_1_alg».proof.Proof.CellBodyBits
import proofs.«163377_j49039936586195_1_alg».proof.Proof.CellArrays
import proofs.«163377_j49039936586195_1_alg».proof.Proof.RefCell
import Idealize.ShloMosaic.Adequacy
import Idealize.ShloMosaic.Init

noncomputable section

namespace Cert.Proof

open Idealize.ShloMosaic Idealize.SL.Sem

/-- The kernel's program as printed runs to the end and keeps its arguments. -/
theorem frame_kernel : Cert.frame_Kernel := fun m ρ _ => Cert.Kernel.Cell.frame m ρ

/-- So does its idealization. -/
theorem frame_kernelIdeal : Cert.frame_KernelIdeal := fun m ρ _ => Cert.KernelIdeal.Cell.frame m ρ

/-- The reference is host operations only: its run, with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the arguments both programs end with the specification's new hidden state and new cell
    state of those arguments. -/
theorem algebraic : Cert.algebraic_KernelIdeal_ReferenceIdeal := by
  intro m ρ m' ρ' _ hagree
  refine ⟨fun c => Cert.KernelIdeal.CellValue.hiddenFinal m c, fun c => Cert.KernelIdeal.CellValue.cellFinal m c,
    Cert.KernelIdeal.CellValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v34_eq, Cert.ReferenceIdeal.RefValue.hidden_eq,
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
    rfl
  · rw [Cert.ReferenceIdeal.Read.val_main_v32_eq, Cert.ReferenceIdeal.RefValue.cell_eq,
      (hagree c).1, (hagree c).2.1, (hagree c).2.2.1, (hagree c).2.2.2.1, (hagree c).2.2.2.2.1, (hagree c).2.2.2.2.2.1, (hagree c).2.2.2.2.2.2.1, (hagree c).2.2.2.2.2.2.2.2.2.1, (hagree c).2.2.2.2.2.2.2.2.2.2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
